-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256x4096 : Shape := ⟨2, ![256, 4096]⟩
abbrev S4096x2048 : Shape := ⟨2, ![4096, 2048]⟩
abbrev S4096x4096 : Shape := ⟨2, ![4096, 4096]⟩
abbrev S2048x4096 : Shape := ⟨2, ![2048, 4096]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S4096x2048 .f32) (main_arg5 : FVec F S4096x4096 .f32) (main_arg6 : FVec F S2048x4096 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  main_v33

def fn {F : FTy → Type} [FloatOps F] (main_arg0 : FVec F S256x2048 .f32) (main_arg1 : FVec F S256x2048 .f32) (main_arg2 : FVec F S256x4096 .f32) (main_arg3 : FVec F S256x4096 .f32) (main_arg4 : FVec F S4096x2048 .f32) (main_arg5 : FVec F S4096x4096 .f32) (main_arg6 : FVec F S2048x4096 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_v13 main_v16
-- ==== Kernel.lean ====
abbrev S256x2048 : Shape := ⟨2, ![256, 2048]⟩
abbrev S256x4096 : Shape := ⟨2, ![256, 4096]⟩
abbrev S4096x2048 : Shape := ⟨2, ![4096, 2048]⟩
abbrev S4096x4096 : Shape := ⟨2, ![4096, 4096]⟩
abbrev S2048x4096 : Shape := ⟨2, ![2048, 4096]⟩
abbrev S_ : Shape := ⟨0, ![]⟩
abbrev S512x2048 : Shape := ⟨2, ![512, 2048]⟩
abbrev S256x512 : Shape := ⟨2, ![256, 512]⟩
abbrev S2048x512 : Shape := ⟨2, ![2048, 512]⟩
abbrev S512x4096 : Shape := ⟨2, ![512, 4096]⟩
abbrev S4096x512 : Shape := ⟨2, ![4096, 512]⟩
abbrev S256x12288 : Shape := ⟨2, ![256, 12288]⟩

abbrev nBuf : Space → Nat
  | .hbm => 21
  | .vmem => 15
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x4096, .f32⟩
  | .hbm, ⟨3, _⟩ => ⟨S256x4096, .f32⟩
  | .hbm, ⟨4, _⟩ => ⟨S4096x2048, .f32⟩
  | .hbm, ⟨5, _⟩ => ⟨S4096x4096, .f32⟩
  | .hbm, ⟨6, _⟩ => ⟨S2048x4096, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .i1⟩
  | .hbm, ⟨16, _⟩ => ⟨S256x2048, .f32⟩
  | .hbm, ⟨17, _⟩ => ⟨S256x4096, .f32⟩
  | .hbm, ⟨18, _⟩ => ⟨S256x4096, .f32⟩
  | .hbm, ⟨19, _⟩ => ⟨S256x2048, .f32⟩
  | .hbm, ⟨20, _⟩ => ⟨S256x12288, .f32⟩
  | .local _ .vmem, ⟨0, _⟩ => ⟨S256x2048, .f32⟩
  | .local _ .vmem, ⟨1, _⟩ => ⟨S512x2048, .f32⟩
  | .local _ .vmem, ⟨2, _⟩ => ⟨S512x2048, .f32⟩
  | .local _ .vmem, ⟨3, _⟩ => ⟨S256x512, .f32⟩
  | .local _ .vmem, ⟨4, _⟩ => ⟨S256x512, .f32⟩
  | .local _ .vmem, ⟨5, _⟩ => ⟨S256x4096, .f32⟩
  | .local _ .vmem, ⟨6, _⟩ => ⟨S512x4096, .f32⟩
  | .local _ .vmem, ⟨7, _⟩ => ⟨S512x4096, .f32⟩
  | .local _ .vmem, ⟨8, _⟩ => ⟨S256x512, .f32⟩
  | .local _ .vmem, ⟨9, _⟩ => ⟨S256x512, .f32⟩
  | .local _ .vmem, ⟨10, _⟩ => ⟨S256x4096, .f32⟩
  | .local _ .vmem, ⟨11, _⟩ => ⟨S512x4096, .f32⟩
  | .local _ .vmem, ⟨12, _⟩ => ⟨S512x4096, .f32⟩
  | .local _ .vmem, ⟨13, _⟩ => ⟨S256x512, .f32⟩
  | .local _ .vmem, ⟨14, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S256x2048 : S_.BroadcastsInDim S256x2048 (![] : Fin 0 → Fin S256x2048.rank)
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  natLt_1_32 : 1 < 32
  inb_S256x512_S256x512_0_0 : ∀ a, (![0, 0] : Fin 2 → Nat) a + S256x512.size a ≤ S256x512.size a
  h_S256x512 : 0 < S256x512.numel
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  transposes_S512x4096_p1_0_S4096x512 : S512x4096.Transposes [1, 0] S4096x512
  concatenates_S256x2048_S256x4096_S256x4096_S256x2048_S256x12288_d1 : Shape.Concatenates [S256x2048, S256x4096, S256x4096, S256x2048] S256x12288 1
  dot_S256x2048_S2048x512_S256x512_1_0_0_1_n_n_wf : DotDims.WF S256x2048 S2048x512 S256x512 [1] [0] [0] [1] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x4096.size a
  hwx0_2 : ∀ i : grid0.Coords, EltTy.bits .f32 = 32 ∨ (Rect.block (s := S256x4096) S256x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .f32 = 32 ∨ (Rect.block (s := S256x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x4096.size a
  hwx1_2 : ∀ i : grid1.Coords, EltTy.bits .f32 = 32 ∨ (Rect.block (s := S256x4096) S256x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S256x4096.size a
  hwx2_0 : ∀ i : grid2.Coords, EltTy.bits .f32 = 32 ∨ (Rect.block (s := S256x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S2048x4096.size a
  hwx2_1 : ∀ i : grid2.Coords, EltTy.bits .f32 = 32 ∨ (Rect.block (s := S2048x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x2048.size a
  hwx2_2 : ∀ i : grid2.Coords, EltTy.bits .f32 = 32 ∨ (Rect.block (s := S256x2048) S256x512.size (cc2_transform_2 i) (hinb2_2 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg1) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S256x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x2048 : Shape := ⟨2, ![256, 2048]⟩
abbrev S256x4096 : Shape := ⟨2, ![256, 4096]⟩
abbrev S4096x2048 : Shape := ⟨2, ![4096, 2048]⟩
abbrev S4096x4096 : Shape := ⟨2, ![4096, 4096]⟩
abbrev S2048x4096 : Shape := ⟨2, ![2048, 4096]⟩
abbrev S_ : Shape := ⟨0, ![]⟩
abbrev S256x12288 : Shape := ⟨2, ![256, 12288]⟩

abbrev nBuf : Space → Nat
  | .hbm => 54
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x4096, .f32⟩
  | .hbm, ⟨3, _⟩ => ⟨S256x4096, .f32⟩
  | .hbm, ⟨4, _⟩ => ⟨S4096x2048, .f32⟩
  | .hbm, ⟨5, _⟩ => ⟨S4096x4096, .f32⟩
  | .hbm, ⟨6, _⟩ => ⟨S2048x4096, .f32⟩
  | .hbm, ⟨7, _⟩ => ⟨S2048x4096, .f32⟩
  | .hbm, ⟨8, _⟩ => ⟨S256x4096, .f32⟩
  | .hbm, ⟨9, _⟩ => ⟨S4096x4096, .f32⟩
  | .hbm, ⟨10, _⟩ => ⟨S256x4096, .f32⟩
  | .hbm, ⟨11, _⟩ => ⟨S4096x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .i1⟩
  | .hbm, ⟨22, _⟩ => ⟨S256x2048, .f32⟩
  | .hbm, ⟨23, _⟩ => ⟨S_, .f32⟩
  | .hbm, ⟨24, _⟩ => ⟨S256x4096, .f32⟩
  | .hbm, ⟨25, _⟩ => ⟨S256x4096, .f32⟩
  | .hbm, ⟨26, _⟩ => ⟨S_, .f32⟩
  | .hbm, ⟨27, _⟩ => ⟨S256x4096, .f32⟩
  | .hbm, ⟨28, _⟩ => ⟨S256x4096, .f32⟩
  | .hbm, ⟨29, _⟩ => ⟨S_, .f32⟩
  | .hbm, ⟨30, _⟩ => ⟨S256x4096, .f32⟩
  | .hbm, ⟨31, _⟩ => ⟨S256x4096, .i1⟩
  | .hbm, ⟨32, _⟩ => ⟨S256x4096, .f32⟩
  | .hbm, ⟨33, _⟩ => ⟨S_, .f32⟩
  | .hbm, ⟨34, _⟩ => ⟨S256x4096, .f32⟩
  | .hbm, ⟨35, _⟩ => ⟨S256x4096, .f32⟩
  | .hbm, ⟨36, _⟩ => ⟨S_, .f32⟩
  | .hbm, ⟨37, _⟩ => ⟨S256x4096, .f32⟩
  | .hbm, ⟨38, _⟩ => ⟨S256x4096, .f32⟩
  | .hbm, ⟨39, _⟩ => ⟨S_, .f32⟩
  | .hbm, ⟨40, _⟩ => ⟨S256x4096, .f32⟩
  | .hbm, ⟨41, _⟩ => ⟨S256x4096, .i1⟩
  | .hbm, ⟨42, _⟩ => ⟨S256x4096, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S_, .f32⟩
  | .hbm, ⟨50, _⟩ => ⟨S256x2048, .f32⟩
  | .hbm, ⟨51, _⟩ => ⟨S256x2048, .i1⟩
  | .hbm, ⟨52, _⟩ => ⟨S256x2048, .f32⟩
  | .hbm, ⟨53, _⟩ => ⟨S256x12288, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  transposes_S4096x2048_S2048x4096_1_0 : S4096x2048.Transposes [1, 0] S2048x4096
  transposes_S4096x4096_S4096x4096_1_0 : S4096x4096.Transposes [1, 0] S4096x4096
  transposes_S2048x4096_S4096x2048_1_0 : S2048x4096.Transposes [1, 0] S4096x2048
  bcast_S_S256x2048 : S_.BroadcastsInDim S256x2048 (![] : Fin 0 → Fin S256x2048.rank)
  bcast_S_S256x4096 : S_.BroadcastsInDim S256x4096 (![] : Fin 0 → Fin S256x4096.rank)
  concatenates_S256x2048_S256x4096_S256x4096_S256x2048_S256x12288_d1 : Shape.Concatenates [S256x2048, S256x4096, S256x4096, S256x2048] S256x12288 1
  dot_S256x2048_S2048x4096_S256x4096_1_0_0_1_n_n_wf : DotDims.WF S256x2048 S2048x4096 S256x4096 [1] [0] [0] [1] [] []
  dot_S256x4096_S4096x4096_S256x4096_1_0_0_1_n_n_wf : DotDims.WF S256x4096 S4096x4096 S256x4096 [1] [0] [0] [1] [] []
  dot_S256x4096_S4096x2048_S256x2048_1_0_0_1_n_n_wf : DotDims.WF S256x4096 S4096x2048 S256x2048 [1] [0] [0] [1] [] []

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

class Facts : Prop extends Facts₀ where

variable [Facts]
-- ==== Proof.Kernel.Layer0.lean ====
/-
  Layer 0 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out0_2`),
  and the input buffers are as found.  From this: the proof data of the pipeline (`dat0`) and the pipeline's obligation
  about its body at every tile (`body_obligation0`), at any float instance.
-/
import proofs.«105442_j1176821039344_1_alg».proof.Proof.Gen.Kernel.Launch
import proofs.«105442_j1176821039344_1_alg».proof.Proof.Gen.Kernel.Skeleton
import proofs.«105442_j1176821039344_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lif

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The spike window's staging buffer holds the whole spike matrix at every tile, though it is fetched at the first
    tile only: its block index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's current staging buffer holds the tile's 512 weight rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each buffer whole. -/
abbrev r0_0 : Rect S256x2048 := Rect.unit (s := S256x2048) ![0, 0] S256x2048.size inb_S256x2048_S256x2048_0_0
abbrev r0_1 : Rect S512x2048 := Rect.unit (s := S512x2048) ![0, 0] S512x2048.size inb_S512x2048_S512x2048_0_0
abbrev r0_2 : Rect S256x512 := Rect.unit (s := S256x512) ![0, 0] S256x512.size inb_S256x512_S256x512_0_0

/-- The output tile's buffer after the body: its one store, of the spikes the layer fires from the two input blocks. -/
def out0_2 (x0 : Vec F S256x2048 .f32) (x1 : Vec F S512x2048 .f32) : Vec F S256x512 .f32 :=
  View.canon [⟨r0_2, k0_pay1 (View.ld x0 r0_0) (View.ld x1 r0_1)⟩]

/-- The one store covers the tile. -/
theorem cover0_2 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

set_option maxHeartbeats 1000000 in
/-- The body on whole staging buffers, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S256x2048 .f32) (harg1 : arg1.IsWhole) (arg2 : Memref sig .tc .vmem S512x2048 .f32) (harg2 : arg2.IsWhole) (arg3 : Memref sig .tc .vmem S256x512 .f32) (harg3 : arg3.IsWhole)
    (x0 : Vec F S256x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__lif_matmul_kernel i arg1 harg1 arg2 harg2 arg3 harg3) K := by
  simp only [cc0__lif_matmul_kernel_eq_skeleton]; unfold cc0__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at tile `t` each input's
    buffer at its block and the output's at the layer's spikes from the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any tile: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation0 (c : Dev nD) : BodyObligation (dat0 (F := F) V c) (defs₀ (F := F)) Variants.none () Set.univ := fun t => by
  rw [bigSep_W0, bigSep_W0]
  exact sound_body0 V c t

end Cert.Kernel.Lif

end
-- ==== Proof.Kernel.Layer1.lean ====
/-
  Layer 1 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out1_2`),
  and the input buffers are as found.  From this: the proof data of the pipeline (`dat1`) and the pipeline's obligation
  about its body at every tile (`body_obligation1`), at any float instance.
-/
import proofs.«105442_j1176821039344_1_alg».proof.Proof.Gen.Kernel.Launch
import proofs.«105442_j1176821039344_1_alg».proof.Proof.Gen.Kernel.Skeleton
import proofs.«105442_j1176821039344_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lif

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The spike window's staging buffer holds the whole spike matrix at every tile, though it is fetched at the first
    tile only: its block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's current staging buffer holds the tile's 512 weight rows. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: each buffer whole. -/
abbrev r1_0 : Rect S256x4096 := Rect.unit (s := S256x4096) ![0, 0] S256x4096.size inb_S256x4096_S256x4096_0_0
abbrev r1_1 : Rect S512x4096 := Rect.unit (s := S512x4096) ![0, 0] S512x4096.size inb_S512x4096_S512x4096_0_0
abbrev r1_2 : Rect S256x512 := Rect.unit (s := S256x512) ![0, 0] S256x512.size inb_S256x512_S256x512_0_0

/-- The output tile's buffer after the body: its one store, of the spikes the layer fires from the two input blocks. -/
def out1_2 (x0 : Vec F S256x4096 .f32) (x1 : Vec F S512x4096 .f32) : Vec F S256x512 .f32 :=
  View.canon [⟨r1_2, k1_pay1 (View.ld x0 r1_0) (View.ld x1 r1_1)⟩]

/-- The one store covers the tile. -/
theorem cover1_2 (p0 : Vec F S256x512 .f32) (y : S256x512.Idx) :
    ∃ pc ∈ ([⟨r1_2, p0⟩] : List (View.Piece (Elt F) S256x512 .f32)), y ∈ pc.1.set :=
  View.cover_of_tiled [⟨r1_2, p0⟩] S256x512.size (by rfl) y

set_option maxHeartbeats 1000000 in
/-- The body on whole staging buffers, the inputs' at contents `x0`, `x1` and the output's at anything, runs to the
    continuation with the inputs' as they were and the output's at `out1_2 x0 x1`. -/
theorem sound_kernel1 (c : Dev nD) (E : Set ℕ) (i : grid1.Coords) (arg1 : Memref sig .tc .vmem S256x4096 .f32) (harg1 : arg1.IsWhole) (arg2 : Memref sig .tc .vmem S512x4096 .f32) (harg2 : arg2.IsWhole) (arg3 : Memref sig .tc .vmem S256x512 .f32) (harg3 : arg3.IsWhole)
    (x0 : Vec F S256x4096 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__lif_matmul_kernel i arg1 harg1 arg2 harg2 arg3 harg3) K := by
  simp only [cc1__lif_matmul_kernel_eq_skeleton]; unfold cc1__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at tile `t` each input's
    buffer at its block and the output's at the layer's spikes from the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any tile: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation1 (c : Dev nD) : BodyObligation (dat1 (F := F) V c) (defs₀ (F := F)) Variants.none () Set.univ := fun t => by
  rw [bigSep_W1, bigSep_W1]
  exact sound_body1 V c t

end Cert.Kernel.Lif

end
-- ==== Proof.Kernel.Layer2.lean ====
/-
  Layer 2 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out2_2`),
  and the input buffers are as found.  From this: the proof data of the pipeline (`dat2`) and the pipeline's obligation
  about its body at every tile (`body_obligation2`), at any float instance.
-/
import proofs.«105442_j1176821039344_1_alg».proof.Proof.Gen.Kernel.Launch
import proofs.«105442_j1176821039344_1_alg».proof.Proof.Gen.Kernel.Skeleton
import proofs.«105442_j1176821039344_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lif

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The spike window's staging buffer holds the whole spike matrix at every tile, though it is fetched at the first
    tile only: its block index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's current staging buffer holds the tile's 512 weight rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each buffer whole. -/
abbrev r2_0 : Rect S256x4096 := Rect.unit (s := S256x4096) ![0, 0] S256x4096.size inb_S256x4096_S256x4096_0_0
abbrev r2_1 : Rect S512x4096 := Rect.unit (s := S512x4096) ![0, 0] S512x4096.size inb_S512x4096_S512x4096_0_0
abbrev r2_2 : Rect S256x512 := Rect.unit (s := S256x512) ![0, 0] S256x512.size inb_S256x512_S256x512_0_0

/-- The output tile's buffer after the body: its one store, of the spikes the layer fires from the two input blocks. -/
def out2_2 (x0 : Vec F S256x4096 .f32) (x1 : Vec F S512x4096 .f32) : Vec F S256x512 .f32 :=
  View.canon [⟨r2_2, k2_pay1 (View.ld x0 r2_0) (View.ld x1 r2_1)⟩]

/-- The one store covers the tile. -/
theorem cover2_2 (p0 : Vec F S256x512 .f32) (y : S256x512.Idx) :
    ∃ pc ∈ ([⟨r2_2, p0⟩] : List (View.Piece (Elt F) S256x512 .f32)), y ∈ pc.1.set :=
  View.cover_of_tiled [⟨r2_2, p0⟩] S256x512.size (by rfl) y

set_option maxHeartbeats 1000000 in
/-- The body on whole staging buffers, the inputs' at contents `x0`, `x1` and the output's at anything, runs to the
    continuation with the inputs' as they were and the output's at `out2_2 x0 x1`. -/
theorem sound_kernel2 (c : Dev nD) (E : Set ℕ) (i : grid2.Coords) (arg1 : Memref sig .tc .vmem S256x4096 .f32) (harg1 : arg1.IsWhole) (arg2 : Memref sig .tc .vmem S512x4096 .f32) (harg2 : arg2.IsWhole) (arg3 : Memref sig .tc .vmem S256x512 .f32) (harg3 : arg3.IsWhole)
    (x0 : Vec F S256x4096 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__lif_matmul_kernel i arg1 harg1 arg2 harg2 arg3 harg3) K := by
  simp only [cc2__lif_matmul_kernel_eq_skeleton]; unfold cc2__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at tile `t` each input's
    buffer at its block and the output's at the layer's spikes from the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at tile `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any tile: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation2 (c : Dev nD) : BodyObligation (dat2 (F := F) V c) (defs₀ (F := F)) Variants.none () Set.univ := fun t => by
  rw [bigSep_W2, bigSep_W2]
  exact sound_body2 V c t

end Cert.Kernel.Lif

end
-- ==== Proof.Kernel.Run.lean ====
/-
  The whole program as a run of five stretches: the host operations that fire the input layer's spikes, the three
  pipelined layers one after the other, and the host concatenation of the four spike matrices.  The buffer contents at
  each boundary are a fold from the launch memory: a host stretch applies its operations; a layer leaves its two input
  arrays as entered and its output array at what its tiles' write-backs leave (`Dat.arrAt`), and touches nothing else.
  Each layer's region record is built from that layer's body obligation; the run then says that every weakly fair
  execution terminates with every unscoped buffer at the last boundary's contents (`run_all`).  Read at the argument
  arrays this is the frame; read at the result it is the concatenation of what the stretches left.
-/
import proofs.«105442_j1176821039344_1_alg».proof.Proof.Kernel.Layer0
import proofs.«105442_j1176821039344_1_alg».proof.Proof.Kernel.Layer1
import proofs.«105442_j1176821039344_1_alg».proof.Proof.Kernel.Layer2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lif

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the layers (the input layer's spikes). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At layer 0's exit: its arrays at what the pipeline leaves (the inputs as entered, the output's tiles written back),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the layer as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At layer 1's exit: its arrays at what the pipeline leaves (the inputs as entered, the output's tiles written back),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the layer as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At layer 2's exit: its arrays at what the pipeline leaves (the inputs as entered, the output's tiles written back),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves the layer as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the concatenation: the end. -/
abbrev W5 : Dev nD → Valuation τ sig (Elt F) := fun c => StableHlo.after hostOps3 (W4 m ρ c)

/-! ## What the layers leave alone -/

theorem W4_main_arg0 (c : Dev nD) : W4 m ρ c (Proc.devRef .tc main_arg0) = W1 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)

theorem W4_main_arg1 (c : Dev nD) : W4 m ρ c (Proc.devRef .tc main_arg1) = W1 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 0 rfl

theorem W4_main_arg2 (c : Dev nD) : W4 m ρ c (Proc.devRef .tc main_arg2) = W1 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_in m ρ c 0 rfl
    _ = W1 m ρ c (Proc.devRef .tc main_arg2) := W2_of_ne m ρ c main_arg2 (by decide)

theorem W4_main_arg3 (c : Dev nD) : W4 m ρ c (Proc.devRef .tc main_arg3) = W1 m ρ c (Proc.devRef .tc main_arg3) :=
  calc W4 m ρ c (Proc.devRef .tc main_arg3)
    _ = W3 m ρ c (Proc.devRef .tc main_arg3) := W4_in m ρ c 0 rfl
    _ = W2 m ρ c (Proc.devRef .tc main_arg3) := W3_of_ne m ρ c main_arg3 (by decide)
    _ = W1 m ρ c (Proc.devRef .tc main_arg3) := W2_of_ne m ρ c main_arg3 (by decide)

theorem W4_main_arg4 (c : Dev nD) : W4 m ρ c (Proc.devRef .tc main_arg4) = W1 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_in m ρ c 1 rfl

theorem W4_main_arg5 (c : Dev nD) : W4 m ρ c (Proc.devRef .tc main_arg5) = W1 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_in m ρ c 1 rfl
    _ = W1 m ρ c (Proc.devRef .tc main_arg5) := W2_of_ne m ρ c main_arg5 (by decide)

theorem W4_main_arg6 (c : Dev nD) : W4 m ρ c (Proc.devRef .tc main_arg6) = W1 m ρ c (Proc.devRef .tc main_arg6) :=
  calc W4 m ρ c (Proc.devRef .tc main_arg6)
    _ = W3 m ρ c (Proc.devRef .tc main_arg6) := W4_in m ρ c 1 rfl
    _ = W2 m ρ c (Proc.devRef .tc main_arg6) := W3_of_ne m ρ c main_arg6 (by decide)
    _ = W1 m ρ c (Proc.devRef .tc main_arg6) := W2_of_ne m ρ c main_arg6 (by decide)

theorem W4_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

/-- The concatenation writes only the result. -/
theorem W5_of_ne (c : Dev nD) (b : Ref sig .tc) (hb : b ≠ main_v10) : W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nary_writes, Finset.mem_singleton]
    exact StableHlo.devRef_ne_of_ne hb))

/-- The host operations before the layers write no argument. -/
theorem W1_arg (c : Dev nD) (b : Ref sig .tc) (hb : b ∉ ([main_cst, main_v0, main_v1, main_cst_0, main_v2, main_v3, main_cst_1, main_v4, main_v5, main_v6] : List (Ref sig .tc))) :
    W1 m ρ c (Proc.devRef .tc b) = m ((c : Thread nD τ).loc b) :=
  StableHlo.after_of_forall_not_mem (b := Proc.devRef .tc b) _ _ (List.forall_iff_forall_mem.mp (by
    simp only [List.mem_cons, List.not_mem_nil, or_false, not_or] at hb
    simp only [hostOps0, List.Forall, StableHlo.nullary_writes, StableHlo.unary_writes, StableHlo.binary_writes, Finset.mem_singleton]
    refine ⟨?_, ?_, ?_, ?_, ?_, ?_, ?_, ?_, ?_, ?_⟩
    all_goals first
      | exact StableHlo.devRef_ne_of_ne hb.1
      | exact StableHlo.devRef_ne_of_ne hb.2.1
      | exact StableHlo.devRef_ne_of_ne hb.2.2.1
      | exact StableHlo.devRef_ne_of_ne hb.2.2.2.1
      | exact StableHlo.devRef_ne_of_ne hb.2.2.2.2.1
      | exact StableHlo.devRef_ne_of_ne hb.2.2.2.2.2.1
      | exact StableHlo.devRef_ne_of_ne hb.2.2.2.2.2.2.1
      | exact StableHlo.devRef_ne_of_ne hb.2.2.2.2.2.2.2.1
      | exact StableHlo.devRef_ne_of_ne hb.2.2.2.2.2.2.2.2.1
      | exact StableHlo.devRef_ne_of_ne hb.2.2.2.2.2.2.2.2.2))

/-! ## The proof data family and the thread state -/

abbrev adm : (p : Fin 3) → (pcfgs (F := F) p).Adm := fun p => (cfgs p).toPCfg_adm
/-- Every layer's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The layers as segments -/

set_option backward.isDefEq.respectTransparency.types false in
/-- Layer 0's region over the thread state: entered from every unscoped buffer at `W1`, left at `W2`. Its
    arrays are split out of the unscoped buffers at entry and put back at the exit contents; the generator register
    passes through the pipeline's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered from every unscoped buffer at `W2`, left at `W3`. Its
    arrays are split out of the unscoped buffers at entry and put back at the exit contents; the generator register
    passes through the pipeline's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W3`, left at `W4`. Its
    arrays are split out of the unscoped buffers at entry and put back at the exit contents; the generator register
    passes through the pipeline's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An argument array ends as launched: no host operation writes it and a layer only reads it. -/
theorem W5_arg (c : Dev nD) (b : Ref sig .tc) (hb : b ∈ ([main_arg0, main_arg1, main_arg2, main_arg3, main_arg4, main_arg5, main_arg6] : List (Ref sig .tc))) :
    W5 m ρ c (Proc.devRef .tc b) = m ((c : Thread nD τ).loc b) := by
  simp only [List.mem_cons, List.not_mem_nil, or_false] at hb
  rcases hb with rfl | rfl | rfl | rfl | rfl | rfl | rfl
  · exact (W5_of_ne m ρ c _ (by decide)).trans ((W4_main_arg0 m ρ c).trans (W1_arg m ρ c _ (by decide)))
  · exact (W5_of_ne m ρ c _ (by decide)).trans ((W4_main_arg1 m ρ c).trans (W1_arg m ρ c _ (by decide)))
  · exact (W5_of_ne m ρ c _ (by decide)).trans ((W4_main_arg2 m ρ c).trans (W1_arg m ρ c _ (by decide)))
  · exact (W5_of_ne m ρ c _ (by decide)).trans ((W4_main_arg3 m ρ c).trans (W1_arg m ρ c _ (by decide)))
  · exact (W5_of_ne m ρ c _ (by decide)).trans ((W4_main_arg4 m ρ c).trans (W1_arg m ρ c _ (by decide)))
  · exact (W5_of_ne m ρ c _ (by decide)).trans ((W4_main_arg5 m ρ c).trans (W1_arg m ρ c _ (by decide)))
  · exact (W5_of_ne m ρ c _ (by decide)).trans ((W4_main_arg6 m ρ c).trans (W1_arg m ρ c _ (by decide)))

/-- THE FRAME, at any float instance: the program runs to the end, nothing faulting, and its seven argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide))⟩) (run_all m ρ)

end Cert.Kernel.Lif

end
-- ==== Proof.KernelIdeal.Layer0.lean ====
/-
  Layer 0 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out0_2`),
  and the input buffers are as found.  From this: the proof data of the pipeline (`dat0`) and the pipeline's obligation
  about its body at every tile (`body_obligation0`), at any float instance.
-/
import proofs.«105442_j1176821039344_1_alg».proof.Proof.Gen.KernelIdeal.Launch
import proofs.«105442_j1176821039344_1_alg».proof.Proof.Gen.KernelIdeal.Skeleton
import proofs.«105442_j1176821039344_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The spike window's staging buffer holds the whole spike matrix at every tile, though it is fetched at the first
    tile only: its block index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's current staging buffer holds the tile's 512 weight rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each buffer whole. -/
abbrev r0_0 : Rect S256x2048 := Rect.unit (s := S256x2048) ![0, 0] S256x2048.size inb_S256x2048_S256x2048_0_0
abbrev r0_1 : Rect S512x2048 := Rect.unit (s := S512x2048) ![0, 0] S512x2048.size inb_S512x2048_S512x2048_0_0
abbrev r0_2 : Rect S256x512 := Rect.unit (s := S256x512) ![0, 0] S256x512.size inb_S256x512_S256x512_0_0

/-- The output tile's buffer after the body: its one store, of the spikes the layer fires from the two input blocks. -/
def out0_2 (x0 : Vec F S256x2048 .f32) (x1 : Vec F S512x2048 .f32) : Vec F S256x512 .f32 :=
  View.canon [⟨r0_2, k0_pay1 (View.ld x0 r0_0) (View.ld x1 r0_1)⟩]

/-- The one store covers the tile. -/
theorem cover0_2 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

set_option maxHeartbeats 1000000 in
/-- The body on whole staging buffers, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S256x2048 .f32) (harg1 : arg1.IsWhole) (arg2 : Memref sig .tc .vmem S512x2048 .f32) (harg2 : arg2.IsWhole) (arg3 : Memref sig .tc .vmem S256x512 .f32) (harg3 : arg3.IsWhole)
    (x0 : Vec F S256x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__lif_matmul_kernel i arg1 harg1 arg2 harg2 arg3 harg3) K := by
  simp only [cc0__lif_matmul_kernel_eq_skeleton]; unfold cc0__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at tile `t` each input's
    buffer at its block and the output's at the layer's spikes from the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any tile: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Lif

end
-- ==== Proof.KernelIdeal.Layer1.lean ====
/-
  Layer 1 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out1_2`),
  and the input buffers are as found.  From this: the proof data of the pipeline (`dat1`) and the pipeline's obligation
  about its body at every tile (`body_obligation1`), at any float instance.
-/
import proofs.«105442_j1176821039344_1_alg».proof.Proof.Gen.KernelIdeal.Launch
import proofs.«105442_j1176821039344_1_alg».proof.Proof.Gen.KernelIdeal.Skeleton
import proofs.«105442_j1176821039344_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The spike window's staging buffer holds the whole spike matrix at every tile, though it is fetched at the first
    tile only: its block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's current staging buffer holds the tile's 512 weight rows. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: each buffer whole. -/
abbrev r1_0 : Rect S256x4096 := Rect.unit (s := S256x4096) ![0, 0] S256x4096.size inb_S256x4096_S256x4096_0_0
abbrev r1_1 : Rect S512x4096 := Rect.unit (s := S512x4096) ![0, 0] S512x4096.size inb_S512x4096_S512x4096_0_0
abbrev r1_2 : Rect S256x512 := Rect.unit (s := S256x512) ![0, 0] S256x512.size inb_S256x512_S256x512_0_0

/-- The output tile's buffer after the body: its one store, of the spikes the layer fires from the two input blocks. -/
def out1_2 (x0 : Vec F S256x4096 .f32) (x1 : Vec F S512x4096 .f32) : Vec F S256x512 .f32 :=
  View.canon [⟨r1_2, k1_pay1 (View.ld x0 r1_0) (View.ld x1 r1_1)⟩]

/-- The one store covers the tile. -/
theorem cover1_2 (p0 : Vec F S256x512 .f32) (y : S256x512.Idx) :
    ∃ pc ∈ ([⟨r1_2, p0⟩] : List (View.Piece (Elt F) S256x512 .f32)), y ∈ pc.1.set :=
  View.cover_of_tiled [⟨r1_2, p0⟩] S256x512.size (by rfl) y

set_option maxHeartbeats 1000000 in
/-- The body on whole staging buffers, the inputs' at contents `x0`, `x1` and the output's at anything, runs to the
    continuation with the inputs' as they were and the output's at `out1_2 x0 x1`. -/
theorem sound_kernel1 (c : Dev nD) (E : Set ℕ) (i : grid1.Coords) (arg1 : Memref sig .tc .vmem S256x4096 .f32) (harg1 : arg1.IsWhole) (arg2 : Memref sig .tc .vmem S512x4096 .f32) (harg2 : arg2.IsWhole) (arg3 : Memref sig .tc .vmem S256x512 .f32) (harg3 : arg3.IsWhole)
    (x0 : Vec F S256x4096 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__lif_matmul_kernel i arg1 harg1 arg2 harg2 arg3 harg3) K := by
  simp only [cc1__lif_matmul_kernel_eq_skeleton]; unfold cc1__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at tile `t` each input's
    buffer at its block and the output's at the layer's spikes from the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any tile: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Lif

end
-- ==== Proof.KernelIdeal.Layer2.lean ====
/-
  Layer 2 of the spiking network as one pipelined region, read at the buffer contents `V` the region is entered with.
  The region's grid walks the output features in tiles of 512: at tile `t` the body is handed the whole spike
  matrix (window 0, the same block at every tile), the 512 weight rows of the tile (window 1) and the 256 x 512 output
  tile (window 2).  The body loads the two input blocks whole and stores one value, a pure function of them, over the
  whole output tile; so after the body the output tile's buffer is that function of the two input blocks (`out2_2`),
  and the input buffers are as found.  From this: the proof data of the pipeline (`dat2`) and the pipeline's obligation
  about its body at every tile (`body_obligation2`), at any float instance.
-/
import proofs.«105442_j1176821039344_1_alg».proof.Proof.Gen.KernelIdeal.Launch
import proofs.«105442_j1176821039344_1_alg».proof.Proof.Gen.KernelIdeal.Skeleton
import proofs.«105442_j1176821039344_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The spike window's staging buffer holds the whole spike matrix at every tile, though it is fetched at the first
    tile only: its block index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's current staging buffer holds the tile's 512 weight rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: each buffer whole. -/
abbrev r2_0 : Rect S256x4096 := Rect.unit (s := S256x4096) ![0, 0] S256x4096.size inb_S256x4096_S256x4096_0_0
abbrev r2_1 : Rect S512x4096 := Rect.unit (s := S512x4096) ![0, 0] S512x4096.size inb_S512x4096_S512x4096_0_0
abbrev r2_2 : Rect S256x512 := Rect.unit (s := S256x512) ![0, 0] S256x512.size inb_S256x512_S256x512_0_0

/-- The output tile's buffer after the body: its one store, of the spikes the layer fires from the two input blocks. -/
def out2_2 (x0 : Vec F S256x4096 .f32) (x1 : Vec F S512x4096 .f32) : Vec F S256x512 .f32 :=
  View.canon [⟨r2_2, k2_pay1 (View.ld x0 r2_0) (View.ld x1 r2_1)⟩]

/-- The one store covers the tile. -/
theorem cover2_2 (p0 : Vec F S256x512 .f32) (y : S256x512.Idx) :
    ∃ pc ∈ ([⟨r2_2, p0⟩] : List (View.Piece (Elt F) S256x512 .f32)), y ∈ pc.1.set :=
  View.cover_of_tiled [⟨r2_2, p0⟩] S256x512.size (by rfl) y

set_option maxHeartbeats 1000000 in
/-- The body on whole staging buffers, the inputs' at contents `x0`, `x1` and the output's at anything, runs to the
    continuation with the inputs' as they were and the output's at `out2_2 x0 x1`. -/
theorem sound_kernel2 (c : Dev nD) (E : Set ℕ) (i : grid2.Coords) (arg1 : Memref sig .tc .vmem S256x4096 .f32) (harg1 : arg1.IsWhole) (arg2 : Memref sig .tc .vmem S512x4096 .f32) (harg2 : arg2.IsWhole) (arg3 : Memref sig .tc .vmem S256x512 .f32) (harg3 : arg3.IsWhole)
    (x0 : Vec F S256x4096 .f32) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__lif_matmul_kernel i arg1 harg1 arg2 harg2 arg3 harg3) K := by
  simp only [cc2__lif_matmul_kernel_eq_skeleton]; unfold cc2__lif_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at tile `t` each input's
    buffer at its block and the output's at the layer's spikes from the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at tile `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any tile: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation about its body, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Lif

end
-- ==== Proof.KernelIdeal.Run.lean ====
/-
  The whole program as a run of five stretches: the host operations that fire the input layer's spikes, the three
  pipelined layers one after the other, and the host concatenation of the four spike matrices.  The buffer contents at
  each boundary are a fold from the launch memory: a host stretch applies its operations; a layer leaves its two input
  arrays as entered and its output array at what its tiles' write-backs leave (`Dat.arrAt`), and touches nothing else.
  Each layer's region record is built from that layer's body obligation; the run then says that every weakly fair
  execution terminates with every unscoped buffer at the last boundary's contents (`run_all`).  Read at the argument
  arrays this is the frame; read at the result it is the concatenation of what the stretches left.
-/
import proofs.«105442_j1176821039344_1_alg».proof.Proof.KernelIdeal.Layer0
import proofs.«105442_j1176821039344_1_alg».proof.Proof.KernelIdeal.Layer1
import proofs.«105442_j1176821039344_1_alg».proof.Proof.KernelIdeal.Layer2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lif

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the layers (the input layer's spikes). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At layer 0's exit: its arrays at what the pipeline leaves (the inputs as entered, the output's tiles written back),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the layer as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At layer 1's exit: its arrays at what the pipeline leaves (the inputs as entered, the output's tiles written back),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves the layer as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At layer 2's exit: its arrays at what the pipeline leaves (the inputs as entered, the output's tiles written back),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves the layer as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the concatenation: the end. -/
abbrev W5 : Dev nD → Valuation τ sig (Elt F) := fun c => StableHlo.after hostOps3 (W4 m ρ c)

/-! ## What the layers leave alone -/

theorem W4_main_arg0 (c : Dev nD) : W4 m ρ c (Proc.devRef .tc main_arg0) = W1 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)

theorem W4_main_arg1 (c : Dev nD) : W4 m ρ c (Proc.devRef .tc main_arg1) = W1 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 0 rfl

theorem W4_main_arg2 (c : Dev nD) : W4 m ρ c (Proc.devRef .tc main_arg2) = W1 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_in m ρ c 0 rfl
    _ = W1 m ρ c (Proc.devRef .tc main_arg2) := W2_of_ne m ρ c main_arg2 (by decide)

theorem W4_main_arg3 (c : Dev nD) : W4 m ρ c (Proc.devRef .tc main_arg3) = W1 m ρ c (Proc.devRef .tc main_arg3) :=
  calc W4 m ρ c (Proc.devRef .tc main_arg3)
    _ = W3 m ρ c (Proc.devRef .tc main_arg3) := W4_in m ρ c 0 rfl
    _ = W2 m ρ c (Proc.devRef .tc main_arg3) := W3_of_ne m ρ c main_arg3 (by decide)
    _ = W1 m ρ c (Proc.devRef .tc main_arg3) := W2_of_ne m ρ c main_arg3 (by decide)

theorem W4_main_arg4 (c : Dev nD) : W4 m ρ c (Proc.devRef .tc main_arg4) = W1 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_in m ρ c 1 rfl

theorem W4_main_arg5 (c : Dev nD) : W4 m ρ c (Proc.devRef .tc main_arg5) = W1 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_in m ρ c 1 rfl
    _ = W1 m ρ c (Proc.devRef .tc main_arg5) := W2_of_ne m ρ c main_arg5 (by decide)

theorem W4_main_arg6 (c : Dev nD) : W4 m ρ c (Proc.devRef .tc main_arg6) = W1 m ρ c (Proc.devRef .tc main_arg6) :=
  calc W4 m ρ c (Proc.devRef .tc main_arg6)
    _ = W3 m ρ c (Proc.devRef .tc main_arg6) := W4_in m ρ c 1 rfl
    _ = W2 m ρ c (Proc.devRef .tc main_arg6) := W3_of_ne m ρ c main_arg6 (by decide)
    _ = W1 m ρ c (Proc.devRef .tc main_arg6) := W2_of_ne m ρ c main_arg6 (by decide)

theorem W4_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

/-- The concatenation writes only the result. -/
theorem W5_of_ne (c : Dev nD) (b : Ref sig .tc) (hb : b ≠ main_v10) : W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nary_writes, Finset.mem_singleton]
    exact StableHlo.devRef_ne_of_ne hb))

/-- The host operations before the layers write no argument. -/
theorem W1_arg (c : Dev nD) (b : Ref sig .tc) (hb : b ∉ ([main_cst, main_v0, main_v1, main_cst_0, main_v2, main_v3, main_cst_1, main_v4, main_v5, main_v6] : List (Ref sig .tc))) :
    W1 m ρ c (Proc.devRef .tc b) = m ((c : Thread nD τ).loc b) :=
  StableHlo.after_of_forall_not_mem (b := Proc.devRef .tc b) _ _ (List.forall_iff_forall_mem.mp (by
    simp only [List.mem_cons, List.not_mem_nil, or_false, not_or] at hb
    simp only [hostOps0, List.Forall, StableHlo.nullary_writes, StableHlo.unary_writes, StableHlo.binary_writes, Finset.mem_singleton]
    refine ⟨?_, ?_, ?_, ?_, ?_, ?_, ?_, ?_, ?_, ?_⟩
    all_goals first
      | exact StableHlo.devRef_ne_of_ne hb.1
      | exact StableHlo.devRef_ne_of_ne hb.2.1
      | exact StableHlo.devRef_ne_of_ne hb.2.2.1
      | exact StableHlo.devRef_ne_of_ne hb.2.2.2.1
      | exact StableHlo.devRef_ne_of_ne hb.2.2.2.2.1
      | exact StableHlo.devRef_ne_of_ne hb.2.2.2.2.2.1
      | exact StableHlo.devRef_ne_of_ne hb.2.2.2.2.2.2.1
      | exact StableHlo.devRef_ne_of_ne hb.2.2.2.2.2.2.2.1
      | exact StableHlo.devRef_ne_of_ne hb.2.2.2.2.2.2.2.2.1
      | exact StableHlo.devRef_ne_of_ne hb.2.2.2.2.2.2.2.2.2))

/-! ## The proof data family and the thread state -/

abbrev adm : (p : Fin 3) → (pcfgs (F := F) p).Adm := fun p => (cfgs p).toPCfg_adm
/-- Every layer's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The layers as segments -/

set_option backward.isDefEq.respectTransparency.types false in
/-- Layer 0's region over the thread state: entered from every unscoped buffer at `W1`, left at `W2`. Its
    arrays are split out of the unscoped buffers at entry and put back at the exit contents; the generator register
    passes through the pipeline's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered from every unscoped buffer at `W2`, left at `W3`. Its
    arrays are split out of the unscoped buffers at entry and put back at the exit contents; the generator register
    passes through the pipeline's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W3`, left at `W4`. Its
    arrays are split out of the unscoped buffers at entry and put back at the exit contents; the generator register
    passes through the pipeline's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An argument array ends as launched: no host operation writes it and a layer only reads it. -/
theorem W5_arg (c : Dev nD) (b : Ref sig .tc) (hb : b ∈ ([main_arg0, main_arg1, main_arg2, main_arg3, main_arg4, main_arg5, main_arg6] : List (Ref sig .tc))) :
    W5 m ρ c (Proc.devRef .tc b) = m ((c : Thread nD τ).loc b) := by
  simp only [List.mem_cons, List.not_mem_nil, or_false] at hb
  rcases hb with rfl | rfl | rfl | rfl | rfl | rfl | rfl
  · exact (W5_of_ne m ρ c _ (by decide)).trans ((W4_main_arg0 m ρ c).trans (W1_arg m ρ c _ (by decide)))
  · exact (W5_of_ne m ρ c _ (by decide)).trans ((W4_main_arg1 m ρ c).trans (W1_arg m ρ c _ (by decide)))
  · exact (W5_of_ne m ρ c _ (by decide)).trans ((W4_main_arg2 m ρ c).trans (W1_arg m ρ c _ (by decide)))
  · exact (W5_of_ne m ρ c _ (by decide)).trans ((W4_main_arg3 m ρ c).trans (W1_arg m ρ c _ (by decide)))
  · exact (W5_of_ne m ρ c _ (by decide)).trans ((W4_main_arg4 m ρ c).trans (W1_arg m ρ c _ (by decide)))
  · exact (W5_of_ne m ρ c _ (by decide)).trans ((W4_main_arg5 m ρ c).trans (W1_arg m ρ c _ (by decide)))
  · exact (W5_of_ne m ρ c _ (by decide)).trans ((W4_main_arg6 m ρ c).trans (W1_arg m ρ c _ (by decide)))

/-- THE FRAME, at any float instance: the program runs to the end, nothing faulting, and its seven argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide))⟩) (run_all m ρ)

end Cert.KernelIdeal.Lif

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Spikes.lean ====
/-
  One layer of leaky integrate-and-fire neurons from a fresh state, on the extended reals.

  A neuron's input current is the sum of its incoming spikes weighted by its row of the weight matrix; it fires (1)
  when the leaked current reaches the threshold, `leak · current − threshold ≥ 0`, and stays silent (0) otherwise
  (`fires`, `current`, `layer`).  Two programs compute a layer: a tiled one that hands a matrix unit the spike matrix and
  a tile of weight rows, transposed, scales the product on the right, compares, widens the one-bit answer to 32 bits
  and converts it as a signed integer (`tile_fires`); and a whole-array one that transposes the weights, multiplies,
  scales on the left, compares and converts the bit unsigned (`host_layer`).  Both are `fires` of the same current:
  the product of two extended reals commutes, and a bit read signed after widening is the bit read unsigned.
-/
import Idealize.ShloMosaic.PureOps.Ideal.Laws
import Idealize.ShloMosaic.Lib.ValueIdx
import Idealize.ShloMosaic.Lib.ValueLayout
import Idealize.ShloMosaic.Lib.Pipeline.Value
import proofs.«105442_j1176821039344_1_alg».proof.Proof.LibColumnBlocks

noncomputable section

namespace Cert.Spikes

open Idealize.ShloMosaic Idealize.ShloMosaic.ValueIdx

/-- Whether a neuron with input current `cur` fires: 1 when `leak · cur − threshold ≥ 0`, else 0; the leak and the
    threshold are the two float words the programs share. -/
def fires (cur : EReal) : EReal :=
  (((Ideal.cmp .oge (Ideal.ofBits .f32 0x3D4CCCCD#32 * cur - Ideal.ofBits .f32 0x3CA3D70A#32) (Ideal.ofBits .f32 0x00000000#32)).toNat : ℝ) : EReal)

/-- A one-bit word widened to 32 bits and read as a signed integer is the bit read unsigned. -/
theorem bit_signed_eq (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

section Layer
variable {A K N : ℕ}

/-- Neuron `n`'s input current for sample `a`: the spikes of row `a` against weight row `n`. -/
def current (s : FVec Ideal ⟨2, ![A, K]⟩ .f32) (w : FVec Ideal ⟨2, ![N, K]⟩ .f32) (a : Fin A) (n : Fin N) : EReal :=
  ∑ k : Fin K, s (ix2 a k) * w (ix2 n k)

/-- The layer's spikes, as an array. -/
def layer (s : FVec Ideal ⟨2, ![A, K]⟩ .f32) (w : FVec Ideal ⟨2, ![N, K]⟩ .f32) : FVec Ideal ⟨2, ![A, N]⟩ .f32 :=
  fun j => fires (current s w ⟨(j 0).val, (j 0).isLt⟩ ⟨(j 1).val, (j 1).isLt⟩)

theorem layer_ix2 (s : FVec Ideal ⟨2, ![A, K]⟩ .f32) (w : FVec Ideal ⟨2, ![N, K]⟩ .f32) (a : Fin A) (n : Fin N) :
    layer s w (ix2 a n) = fires (current s w a n) := rfl

/-- A current depends only on the spike row and the weight row it is taken over. -/
theorem current_congr {Nt : ℕ} (x0 s : FVec Ideal ⟨2, ![A, K]⟩ .f32) (x1 : FVec Ideal ⟨2, ![Nt, K]⟩ .f32) (w : FVec Ideal ⟨2, ![N, K]⟩ .f32)
    (a : Fin A) (b : Fin Nt) (n : Fin N) (h0 : ∀ k, x0 (ix2 a k) = s (ix2 a k)) (h1 : ∀ k, x1 (ix2 b k) = w (ix2 n k)) :
    current x0 x1 a b = current s w a n :=
  Finset.sum_congr rfl fun k _ => by rw [h0 k, h1 k]

/-- A scalar stretched over a shape reads the scalar everywhere. -/
theorem splat_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b :=
  broadcastInDim_apply _ h _ j ix0 fun a => a.elim0

section Tile
variable (d : DotDims ⟨2, ![A, K]⟩ ⟨2, ![K, N]⟩ ⟨2, ![A, N]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (htr : (⟨2, ![N, K]⟩ : Shape).Transposes [1, 0] ⟨2, ![K, N]⟩)

include hr hs hlc hrc hl0 hr1 in
/-- The tiled program at one element: the matrix unit's product of the (narrowed) spikes with the (narrowed) weight
    rows transposed is the current, and the scaled, compared, widened and converted answer is `fires` of it. -/
theorem tile_fires (hb : FTy.bits .bf16 < FTy.bits .f32) (h32 : 1 < 32)
    (x0 : FVec Ideal ⟨2, ![A, K]⟩ .f32) (x1 : FVec Ideal ⟨2, ![N, K]⟩ .f32) (a : Fin A) (b : Fin N) :
    (sitofp (F := Ideal) .f32 (extui 32 (cmpf .oge (subf (mulf
        (matmul d none (truncf .bf16 x0 hb) (transpose ⟨2, ![K, N]⟩ [1, 0] (truncf .bf16 x1 hb) htr) (constant ⟨2, ![A, N]⟩ .f32 0x00000000#32))
        (broadcast ⟨2, ![A, N]⟩ (Scalar.ofBits (F := Ideal) .f32 0x3D4CCCCD#32)))
        (broadcast ⟨2, ![A, N]⟩ (Scalar.ofBits (F := Ideal) .f32 0x3CA3D70A#32)))
        (broadcast ⟨2, ![A, N]⟩ (Scalar.ofBits (F := Ideal) .f32 0x00000000#32))) h32) : FVec Ideal ⟨2, ![A, N]⟩ .f32) (ix2 a b)
      = fires (current x0 x1 a b) := by
  have hm : matmul d none (truncf .bf16 x0 hb) (transpose ⟨2, ![K, N]⟩ [1, 0] (truncf .bf16 x1 hb) htr) (constant ⟨2, ![A, N]⟩ .f32 0x00000000#32) (ix2 a b)
      = current x0 x1 a b := by
    rw [LibColumnBlocks.matmul_zero_apply d hr hs hlc hrc hl0 hr1]
    refine Finset.sum_congr rfl fun k _ => ?_
    rw [transpose_ix2_apply]
    rfl
  unfold fires
  rw [← hm]
  refine (bit_signed_eq _).trans ?_
  rw [mul_comm]
  rfl

include hr hs hlc hrc hl0 hr1 in
/-- The whole-array program is the layer. -/
theorem host_layer (hbc : (⟨0, ![]⟩ : Shape).BroadcastsInDim ⟨2, ![A, N]⟩ ![])
    (s : FVec Ideal ⟨2, ![A, K]⟩ .f32) (w : FVec Ideal ⟨2, ![N, K]⟩ .f32) :
    (uitofp (F := Ideal) .f32 (cmpf .oge (subf (mulf
        (broadcastInDim ⟨2, ![A, N]⟩ ![] hbc (constant (F := Ideal) ⟨0, ![]⟩ .f32 0x3D4CCCCD#32))
        (Host.dotGeneral (F := Ideal) d none s (transpose ⟨2, ![K, N]⟩ [1, 0] w htr)))
        (broadcastInDim ⟨2, ![A, N]⟩ ![] hbc (constant (F := Ideal) ⟨0, ![]⟩ .f32 0x3CA3D70A#32)))
        (broadcastInDim ⟨2, ![A, N]⟩ ![] hbc (constant (F := Ideal) ⟨0, ![]⟩ .f32 0x00000000#32))) : FVec Ideal ⟨2, ![A, N]⟩ .f32)
      = layer s w := by
  funext j
  obtain ⟨a, n, rfl⟩ : ∃ (a : Fin A) (n : Fin N), j = ix2 a n := ⟨j 0, j 1, eq_ix2 j⟩
  have hd : Host.dotGeneral (F := Ideal) d none s (transpose ⟨2, ![K, N]⟩ [1, 0] w htr) (ix2 a n) = current s w a n := by
    rw [LibColumnBlocks.hostDot_apply d hr hs hlc hrc hl0 hr1]
    refine Finset.sum_congr rfl fun k _ => ?_
    rw [transpose_ix2_apply]
  rw [layer_ix2]
  unfold fires
  rw [← hd, ← splat_apply hbc 0x3D4CCCCD#32 (ix2 a n), ← splat_apply hbc 0x3CA3D70A#32 (ix2 a n), ← splat_apply hbc 0x00000000#32 (ix2 a n)]
  rfl

end Tile
end Layer

/-- The input layer has no weights: each input is its own current. -/
def inputLayer {t : Shape} (h : (⟨0, ![]⟩ : Shape).BroadcastsInDim t ![]) (x : FVec Ideal t .f32) : FVec Ideal t .f32 :=
  uitofp (F := Ideal) .f32 (cmpf .oge (subf (mulf
    (broadcastInDim t ![] h (constant (F := Ideal) ⟨0, ![]⟩ .f32 0x3D4CCCCD#32)) x)
    (broadcastInDim t ![] h (constant (F := Ideal) ⟨0, ![]⟩ .f32 0x3CA3D70A#32)))
    (broadcastInDim t ![] h (constant (F := Ideal) ⟨0, ![]⟩ .f32 0x00000000#32)))

theorem splat_256x2048 : (⟨0, ![]⟩ : Shape).BroadcastsInDim ⟨2, ![256, 2048]⟩ ![] := by decide
theorem joins : Shape.Concatenates [⟨2, ![256, 2048]⟩, ⟨2, ![256, 4096]⟩, ⟨2, ![256, 4096]⟩, ⟨2, ![256, 2048]⟩] ⟨2, ![256, 12288]⟩ 1 := by decide

/-- The network's step: the spikes of the input group, of the two hidden groups and of the output group, side by side
    along the feature axis. -/
def network (x : FVec Ideal ⟨2, ![256, 2048]⟩ .f32) (s1 : FVec Ideal ⟨2, ![256, 2048]⟩ .f32) (s2 s3 : FVec Ideal ⟨2, ![256, 4096]⟩ .f32)
    (w1 : FVec Ideal ⟨2, ![4096, 2048]⟩ .f32) (w2 : FVec Ideal ⟨2, ![4096, 4096]⟩ .f32) (w3 : FVec Ideal ⟨2, ![2048, 4096]⟩ .f32) :
    FVec Ideal ⟨2, ![256, 12288]⟩ .f32 :=
  concatenate ⟨2, ![256, 12288]⟩ 1 [⟨⟨2, ![256, 2048]⟩, inputLayer splat_256x2048 x⟩, ⟨⟨2, ![256, 4096]⟩, layer s1 w1⟩, ⟨⟨2, ![256, 4096]⟩, layer s2 w2⟩, ⟨⟨2, ![256, 2048]⟩, layer s3 w3⟩] joins

end Cert.Spikes

end
-- ==== Proof.KernelIdeal.Value.lean ====
/-
  What the program leaves in its result, on the extended reals.  Each pipelined layer writes its output array tile by
  tile; tile `t` holds the neurons 512·t … 512·t+511, computed from the whole spike matrix and those neurons' weight
  rows, so what it writes back is block `t` of the layer's spikes of the two whole arrays (`flushedK`); the tiles cover
  the array, so the array ends at the layer's spikes (`finalK`).  No stretch writes an argument, so each layer finds its
  spike and weight arrays as launched; the last stretch joins the input layer's spikes and the three layers' along the
  feature axis (`result`).
-/
import proofs.«105442_j1176821039344_1_alg».proof.Proof.KernelIdeal.Run
import proofs.«105442_j1176821039344_1_alg».proof.Proof.Spikes
import Idealize.ShloMosaic.Lib.Pipeline.Value
import Idealize.ShloMosaic.Lib.StableHlo.Run

set_option maxRecDepth 16384

noncomputable section

namespace Cert.KernelIdeal.Lif

open Cert.KernelIdeal Cert.KernelIdeal.Gen Cert.Spikes
open Idealize.ShloMosaic Idealize.ShloMosaic.TcCoe Idealize.ShloMosaic.ValueIdx Idealize.ShloMosaic.StableHlo
open Idealize.SL.Sem
open Idealize.ShloMosaic.Pipeline (Dat Cfg Window)

theorem hz : (![0, 0] : Fin 2 → Nat) = fun _ => 0 := funext fun a => by fin_cases a <;> rfl

theorem lhs0_2048 (i : S256x512.Idx) (q : dot_S256x2048_S2048x512_S256x512_1_0_0_1_n_n.contr.Idx) : (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem rhs1_2048 (i : S256x512.Idx) (q : dot_S256x2048_S2048x512_S256x512_1_0_0_1_n_n.contr.Idx) : (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

theorem lhs0_4096 (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem rhs1_4096 (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

section AtEntry
variable (V : (c : Dev nD) → (b : Ref sig .tc) → Buf (Elt Ideal) ((c : Thread nD τ).loc b))

/-! ## Layer 0 -/

/-- The body's stored value at an element of the tile: the neuron fires on the current of the two loaded blocks. -/
theorem pay0 (x0 : Vec Ideal S256x2048 .f32) (x1 : Vec Ideal S512x2048 .f32) (a : Fin 256) (b : Fin 512) :
    k0_pay1 (F := Ideal) x0 x1 (ix2 a b) = fires (current x0 x1 a b) := by
  unfold k0_pay1
  exact tile_fires dot_S256x2048_S2048x512_S256x512_1_0_0_1_n_n rfl rfl rfl rfl lhs0_2048 rhs1_2048 _ _ _ x0 x1 a b

/-- The printed index maps over the grid: the spike window stays on block (0, 0); the weight window is on row block
    `t`; the output window on column block `t`. -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What tile `t` writes back is block `t` of the layer's spikes, of the spike and weight arrays as the region finds them. -/
theorem flushed0 (c : Dev nD) (t : Fin cfg0.N) :
    (dat0 V c).flushed 2 t = ((cfg0.win 2).blk t).view.read (Elt Ideal) (layer (V c main_arg1) (V c main_arg4)) := by
  show (cfg0.win 2).cut (grid0.coords t) ((dat0 V c).after 2 t) = _
  rw [after0_2]
  unfold out0_2
  rw [View.canon_unit_zero hz]
  simp only [View.ld_unit_zero (S := S256x2048) hz, View.ld_unit_zero (S := S512x2048) hz]
  obtain ⟨e0, e1, e2, e3, e4, e5⟩ := idx_facts0 t
  have ht : t.val < 8 := lt_of_lt_of_eq t.isLt N_0
  funext j
  obtain ⟨a, b, rfl⟩ : ∃ (a : Fin 256) (b : Fin 512), j = ix2 a b := ⟨j 0, j 1, eq_ix2 j⟩
  refine (pay0 _ _ a b).trans ?_
  have hemb : ((cfg0.win 2).blk t).view.emb (ix2 a b) = ix2 a (⟨t.val * 512 + b.val, by have := b.isLt; omega⟩ : Fin 4096) := by
    funext d; apply Fin.ext
    match d with
    | ⟨0, _⟩ => show win0_2.index t (0 : Fin 2) * 256 + 1 * a.val = a.val; omega
    | ⟨1, _⟩ => show win0_2.index t (1 : Fin 2) * 512 + 1 * b.val = t.val * 512 + b.val; omega
  show _ = layer (V c main_arg1) (V c main_arg4) (((cfg0.win 2).blk t).view.emb (ix2 a b))
  rw [hemb, layer_ix2]
  refine congrArg fires (current_congr _ _ _ _ a b _ (fun k => ?_) (fun k => ?_))
  · show V c main_arg1 (((cfg0.win 0).blk t).view.emb (ix2 a k)) = V c main_arg1 (ix2 a k)
    refine congrArg _ (funext fun d => Fin.ext ?_)
    match d with
    | ⟨0, _⟩ => show win0_0.index t (0 : Fin 2) * 256 + 1 * a.val = a.val; omega
    | ⟨1, _⟩ => show win0_0.index t (1 : Fin 2) * 2048 + 1 * k.val = k.val; omega
  · show V c main_arg4 (((cfg0.win 1).blk t).view.emb (ix2 b k)) = V c main_arg4 (ix2 (⟨t.val * 512 + b.val, by have := b.isLt; omega⟩ : Fin 4096) k)
    refine congrArg _ (funext fun d => Fin.ext ?_)
    match d with
    | ⟨0, _⟩ => show win0_1.index t (0 : Fin 2) * 512 + 1 * b.val = t.val * 512 + b.val; omega
    | ⟨1, _⟩ => show win0_1.index t (1 : Fin 2) * 2048 + 1 * k.val = k.val; omega

/-- An index of the output array is in tile `t`'s block iff each coordinate is in the block's range on its axis. -/
theorem mem_blk0 (t : Fin cfg0.N) (i : S256x4096.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v7).slice (win0_2.rect t)).set ↔ _
  rw [View.set_slice_whole, Rect.mem_set_unit]
  exact Iff.rfl

/-- Every neuron's column lies in the tile its index divided by 512 names. -/
theorem cover0 (i : S256x4096.Idx) : ∃ t : Fin cfg0.N, (cfg0.win 2).flush t = true ∧ i ∈ ((cfg0.win 2).blk t).view.set := by
  have hi0 : (i 0).val < 256 := (i 0).isLt
  have hi1 : (i 1).val < 4096 := (i 1).isLt
  refine ⟨⟨(i 1).val / 512, by rw [show cfg0.N = 8 from N_0]; omega⟩, flush0_2 _, ?_⟩
  rw [mem_blk0]
  obtain ⟨e0, e1, e2, e3, e4, e5⟩ := idx_facts0 ⟨(i 1).val / 512, by rw [show cfg0.N = 8 from N_0]; omega⟩
  intro a
  match a with
  | ⟨0, _⟩ => show win0_2.index _ (0 : Fin 2) * 256 ≤ (i 0).val ∧ (i 0).val < win0_2.index _ (0 : Fin 2) * 256 + 256; rw [e4]; omega
  | ⟨1, _⟩ => show win0_2.index _ (1 : Fin 2) * 512 ≤ (i 1).val ∧ (i 1).val < win0_2.index _ (1 : Fin 2) * 512 + 512; rw [e5]; show (i 1).val / 512 * 512 ≤ (i 1).val ∧ (i 1).val < (i 1).val / 512 * 512 + 512; omega

/-- The layer's output array after its region: the layer's spikes of the spike and weight arrays the region found. -/
theorem final0 (c : Dev nD) : (dat0 V c).arrAt 2 cfg0.N = layer (V c main_arg1) (V c main_arg4) :=
  (dat0 V c).arrAt_eq_of_cover 2 (layer (V c main_arg1) (V c main_arg4)) (fun t _ => flushed0 V c t) (cover0)

/-! ## Layer 1 -/

/-- The body's stored value at an element of the tile: the neuron fires on the current of the two loaded blocks. -/
theorem pay1 (x0 : Vec Ideal S256x4096 .f32) (x1 : Vec Ideal S512x4096 .f32) (a : Fin 256) (b : Fin 512) :
    k1_pay1 (F := Ideal) x0 x1 (ix2 a b) = fires (current x0 x1 a b) := by
  unfold k1_pay1
  exact tile_fires dot_S256x4096_S4096x512_S256x512_1_0_0_1_n_n rfl rfl rfl rfl lhs0_4096 rhs1_4096 _ _ _ x0 x1 a b

/-- The printed index maps over the grid: the spike window stays on block (0, 0); the weight window is on row block
    `t`; the output window on column block `t`. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- What tile `t` writes back is block `t` of the layer's spikes, of the spike and weight arrays as the region finds them. -/
theorem flushed1 (c : Dev nD) (t : Fin cfg1.N) :
    (dat1 V c).flushed 2 t = ((cfg1.win 2).blk t).view.read (Elt Ideal) (layer (V c main_arg2) (V c main_arg5)) := by
  show (cfg1.win 2).cut (grid1.coords t) ((dat1 V c).after 2 t) = _
  rw [after1_2]
  unfold out1_2
  rw [View.canon_unit_zero hz]
  simp only [View.ld_unit_zero (S := S256x4096) hz, View.ld_unit_zero (S := S512x4096) hz]
  obtain ⟨e0, e1, e2, e3, e4, e5⟩ := idx_facts1 t
  have ht : t.val < 8 := lt_of_lt_of_eq t.isLt N_1
  funext j
  obtain ⟨a, b, rfl⟩ : ∃ (a : Fin 256) (b : Fin 512), j = ix2 a b := ⟨j 0, j 1, eq_ix2 j⟩
  refine (pay1 _ _ a b).trans ?_
  have hemb : ((cfg1.win 2).blk t).view.emb (ix2 a b) = ix2 a (⟨t.val * 512 + b.val, by have := b.isLt; omega⟩ : Fin 4096) := by
    funext d; apply Fin.ext
    match d with
    | ⟨0, _⟩ => show win1_2.index t (0 : Fin 2) * 256 + 1 * a.val = a.val; omega
    | ⟨1, _⟩ => show win1_2.index t (1 : Fin 2) * 512 + 1 * b.val = t.val * 512 + b.val; omega
  show _ = layer (V c main_arg2) (V c main_arg5) (((cfg1.win 2).blk t).view.emb (ix2 a b))
  rw [hemb, layer_ix2]
  refine congrArg fires (current_congr _ _ _ _ a b _ (fun k => ?_) (fun k => ?_))
  · show V c main_arg2 (((cfg1.win 0).blk t).view.emb (ix2 a k)) = V c main_arg2 (ix2 a k)
    refine congrArg _ (funext fun d => Fin.ext ?_)
    match d with
    | ⟨0, _⟩ => show win1_0.index t (0 : Fin 2) * 256 + 1 * a.val = a.val; omega
    | ⟨1, _⟩ => show win1_0.index t (1 : Fin 2) * 4096 + 1 * k.val = k.val; omega
  · show V c main_arg5 (((cfg1.win 1).blk t).view.emb (ix2 b k)) = V c main_arg5 (ix2 (⟨t.val * 512 + b.val, by have := b.isLt; omega⟩ : Fin 4096) k)
    refine congrArg _ (funext fun d => Fin.ext ?_)
    match d with
    | ⟨0, _⟩ => show win1_1.index t (0 : Fin 2) * 512 + 1 * b.val = t.val * 512 + b.val; omega
    | ⟨1, _⟩ => show win1_1.index t (1 : Fin 2) * 4096 + 1 * k.val = k.val; omega

/-- An index of the output array is in tile `t`'s block iff each coordinate is in the block's range on its axis. -/
theorem mem_blk1 (t : Fin cfg1.N) (i : S256x4096.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v8).slice (win1_2.rect t)).set ↔ _
  rw [View.set_slice_whole, Rect.mem_set_unit]
  exact Iff.rfl

/-- Every neuron's column lies in the tile its index divided by 512 names. -/
theorem cover1 (i : S256x4096.Idx) : ∃ t : Fin cfg1.N, (cfg1.win 2).flush t = true ∧ i ∈ ((cfg1.win 2).blk t).view.set := by
  have hi0 : (i 0).val < 256 := (i 0).isLt
  have hi1 : (i 1).val < 4096 := (i 1).isLt
  refine ⟨⟨(i 1).val / 512, by rw [show cfg1.N = 8 from N_1]; omega⟩, flush1_2 _, ?_⟩
  rw [mem_blk1]
  obtain ⟨e0, e1, e2, e3, e4, e5⟩ := idx_facts1 ⟨(i 1).val / 512, by rw [show cfg1.N = 8 from N_1]; omega⟩
  intro a
  match a with
  | ⟨0, _⟩ => show win1_2.index _ (0 : Fin 2) * 256 ≤ (i 0).val ∧ (i 0).val < win1_2.index _ (0 : Fin 2) * 256 + 256; rw [e4]; omega
  | ⟨1, _⟩ => show win1_2.index _ (1 : Fin 2) * 512 ≤ (i 1).val ∧ (i 1).val < win1_2.index _ (1 : Fin 2) * 512 + 512; rw [e5]; show (i 1).val / 512 * 512 ≤ (i 1).val ∧ (i 1).val < (i 1).val / 512 * 512 + 512; omega

/-- The layer's output array after its region: the layer's spikes of the spike and weight arrays the region found. -/
theorem final1 (c : Dev nD) : (dat1 V c).arrAt 2 cfg1.N = layer (V c main_arg2) (V c main_arg5) :=
  (dat1 V c).arrAt_eq_of_cover 2 (layer (V c main_arg2) (V c main_arg5)) (fun t _ => flushed1 V c t) (cover1)

/-! ## Layer 2 -/

/-- The body's stored value at an element of the tile: the neuron fires on the current of the two loaded blocks. -/
theorem pay2 (x0 : Vec Ideal S256x4096 .f32) (x1 : Vec Ideal S512x4096 .f32) (a : Fin 256) (b : Fin 512) :
    k2_pay1 (F := Ideal) x0 x1 (ix2 a b) = fires (current x0 x1 a b) := by
  unfold k2_pay1
  exact tile_fires dot_S256x4096_S4096x512_S256x512_1_0_0_1_n_n rfl rfl rfl rfl lhs0_4096 rhs1_4096 _ _ _ x0 x1 a b

/-- The printed index maps over the grid: the spike window stays on block (0, 0); the weight window is on row block
    `t`; the output window on column block `t`. -/
theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- What tile `t` writes back is block `t` of the layer's spikes, of the spike and weight arrays as the region finds them. -/
theorem flushed2 (c : Dev nD) (t : Fin cfg2.N) :
    (dat2 V c).flushed 2 t = ((cfg2.win 2).blk t).view.read (Elt Ideal) (layer (V c main_arg3) (V c main_arg6)) := by
  show (cfg2.win 2).cut (grid2.coords t) ((dat2 V c).after 2 t) = _
  rw [after2_2]
  unfold out2_2
  rw [View.canon_unit_zero hz]
  simp only [View.ld_unit_zero (S := S256x4096) hz, View.ld_unit_zero (S := S512x4096) hz]
  obtain ⟨e0, e1, e2, e3, e4, e5⟩ := idx_facts2 t
  have ht : t.val < 4 := lt_of_lt_of_eq t.isLt N_2
  funext j
  obtain ⟨a, b, rfl⟩ : ∃ (a : Fin 256) (b : Fin 512), j = ix2 a b := ⟨j 0, j 1, eq_ix2 j⟩
  refine (pay2 _ _ a b).trans ?_
  have hemb : ((cfg2.win 2).blk t).view.emb (ix2 a b) = ix2 a (⟨t.val * 512 + b.val, by have := b.isLt; omega⟩ : Fin 2048) := by
    funext d; apply Fin.ext
    match d with
    | ⟨0, _⟩ => show win2_2.index t (0 : Fin 2) * 256 + 1 * a.val = a.val; omega
    | ⟨1, _⟩ => show win2_2.index t (1 : Fin 2) * 512 + 1 * b.val = t.val * 512 + b.val; omega
  show _ = layer (V c main_arg3) (V c main_arg6) (((cfg2.win 2).blk t).view.emb (ix2 a b))
  rw [hemb, layer_ix2]
  refine congrArg fires (current_congr _ _ _ _ a b _ (fun k => ?_) (fun k => ?_))
  · show V c main_arg3 (((cfg2.win 0).blk t).view.emb (ix2 a k)) = V c main_arg3 (ix2 a k)
    refine congrArg _ (funext fun d => Fin.ext ?_)
    match d with
    | ⟨0, _⟩ => show win2_0.index t (0 : Fin 2) * 256 + 1 * a.val = a.val; omega
    | ⟨1, _⟩ => show win2_0.index t (1 : Fin 2) * 4096 + 1 * k.val = k.val; omega
  · show V c main_arg6 (((cfg2.win 1).blk t).view.emb (ix2 b k)) = V c main_arg6 (ix2 (⟨t.val * 512 + b.val, by have := b.isLt; omega⟩ : Fin 2048) k)
    refine congrArg _ (funext fun d => Fin.ext ?_)
    match d with
    | ⟨0, _⟩ => show win2_1.index t (0 : Fin 2) * 512 + 1 * b.val = t.val * 512 + b.val; omega
    | ⟨1, _⟩ => show win2_1.index t (1 : Fin 2) * 4096 + 1 * k.val = k.val; omega

/-- An index of the output array is in tile `t`'s block iff each coordinate is in the block's range on its axis. -/
theorem mem_blk2 (t : Fin cfg2.N) (i : S256x2048.Idx) :
    i ∈ ((cfg2.win 2).blk t).view.set ↔ ∀ a : Fin 2, win2_2.index t a * S256x512.size a ≤ (i a).val ∧ (i a).val < win2_2.index t a * S256x512.size a + S256x512.size a := by
  show i ∈ ((View.whole main_v9).slice (win2_2.rect t)).set ↔ _
  rw [View.set_slice_whole, Rect.mem_set_unit]
  exact Iff.rfl

/-- Every neuron's column lies in the tile its index divided by 512 names. -/
theorem cover2 (i : S256x2048.Idx) : ∃ t : Fin cfg2.N, (cfg2.win 2).flush t = true ∧ i ∈ ((cfg2.win 2).blk t).view.set := by
  have hi0 : (i 0).val < 256 := (i 0).isLt
  have hi1 : (i 1).val < 2048 := (i 1).isLt
  refine ⟨⟨(i 1).val / 512, by rw [show cfg2.N = 4 from N_2]; omega⟩, flush2_2 _, ?_⟩
  rw [mem_blk2]
  obtain ⟨e0, e1, e2, e3, e4, e5⟩ := idx_facts2 ⟨(i 1).val / 512, by rw [show cfg2.N = 4 from N_2]; omega⟩
  intro a
  match a with
  | ⟨0, _⟩ => show win2_2.index _ (0 : Fin 2) * 256 ≤ (i 0).val ∧ (i 0).val < win2_2.index _ (0 : Fin 2) * 256 + 256; rw [e4]; omega
  | ⟨1, _⟩ => show win2_2.index _ (1 : Fin 2) * 512 ≤ (i 1).val ∧ (i 1).val < win2_2.index _ (1 : Fin 2) * 512 + 512; rw [e5]; show (i 1).val / 512 * 512 ≤ (i 1).val ∧ (i 1).val < (i 1).val / 512 * 512 + 512; omega

/-- The layer's output array after its region: the layer's spikes of the spike and weight arrays the region found. -/
theorem final2 (c : Dev nD) : (dat2 V c).arrAt 2 cfg2.N = layer (V c main_arg3) (V c main_arg6) :=
  (dat2 V c).arrAt_eq_of_cover 2 (layer (V c main_arg3) (V c main_arg6)) (fun t _ => flushed2 V c t) (cover2)

end AtEntry

/-! ## The result -/

variable (m : (ℓ : Loc nD τ sig) → Buf (Elt Ideal) ℓ) (ρ : Dev nD → PrngReg)

/-- The input layer's spikes, left by the host operations before the layers. -/
theorem W1_main_v6 (c : Dev nD) : W1 m ρ c (Proc.devRef .tc main_v6) = inputLayer bcast_S_S256x2048 (m ((c : Thread nD τ).loc main_arg0)) := by
  show StableHlo.after hostOps0 _ (Proc.devRef .tc main_v6) = _
  after_results
  rfl

theorem W4_main_v7 (c : Dev nD) : W4 m ρ c (Proc.devRef .tc main_v7) = layer (m ((c : Thread nD τ).loc main_arg1)) (m ((c : Thread nD τ).loc main_arg4)) := by
  rw [W4_of_ne m ρ c main_v7 (by decide), W3_of_ne m ρ c main_v7 (by decide)]
  refine (W2_arr m ρ c 2).trans ((final0 (V1 m ρ) c).trans ?_)
  rw [show V1 m ρ c main_arg1 = m ((c : Thread nD τ).loc main_arg1) from W1_arg m ρ c main_arg1 (by decide),
    show V1 m ρ c main_arg4 = m ((c : Thread nD τ).loc main_arg4) from W1_arg m ρ c main_arg4 (by decide)]

theorem W4_main_v8 (c : Dev nD) : W4 m ρ c (Proc.devRef .tc main_v8) = layer (m ((c : Thread nD τ).loc main_arg2)) (m ((c : Thread nD τ).loc main_arg5)) := by
  rw [W4_of_ne m ρ c main_v8 (by decide)]
  refine (W3_arr m ρ c 2).trans ((final1 (V2 m ρ) c).trans ?_)
  rw [show V2 m ρ c main_arg2 = m ((c : Thread nD τ).loc main_arg2) from (W2_of_ne m ρ c main_arg2 (by decide)).trans (W1_arg m ρ c main_arg2 (by decide)),
    show V2 m ρ c main_arg5 = m ((c : Thread nD τ).loc main_arg5) from (W2_of_ne m ρ c main_arg5 (by decide)).trans (W1_arg m ρ c main_arg5 (by decide))]

theorem W4_main_v9 (c : Dev nD) : W4 m ρ c (Proc.devRef .tc main_v9) = layer (m ((c : Thread nD τ).loc main_arg3)) (m ((c : Thread nD τ).loc main_arg6)) := by
  refine (W4_arr m ρ c 2).trans ((final2 (V3 m ρ) c).trans ?_)
  rw [show V3 m ρ c main_arg3 = m ((c : Thread nD τ).loc main_arg3) from (W3_of_ne m ρ c main_arg3 (by decide)).trans ((W2_of_ne m ρ c main_arg3 (by decide)).trans (W1_arg m ρ c main_arg3 (by decide))),
    show V3 m ρ c main_arg6 = m ((c : Thread nD τ).loc main_arg6) from (W3_of_ne m ρ c main_arg6 (by decide)).trans ((W2_of_ne m ρ c main_arg6 (by decide)).trans (W1_arg m ρ c main_arg6 (by decide)))]

/-- The result buffer at the end: the four spike matrices side by side. -/
theorem result (c : Dev nD) : W5 m ρ c (Proc.devRef .tc main_v10)
    = network (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  show StableHlo.after hostOps3 _ (Proc.devRef .tc main_v10) = _
  after_results
  show concatenate S256x12288 1 [⟨S256x2048, W4 m ρ c (Proc.devRef .tc main_v6)⟩, ⟨S256x4096, W4 m ρ c (Proc.devRef .tc main_v7)⟩,
    ⟨S256x4096, W4 m ρ c (Proc.devRef .tc main_v8)⟩, ⟨S256x2048, W4 m ρ c (Proc.devRef .tc main_v9)⟩]
    concatenates_S256x2048_S256x4096_S256x4096_S256x2048_S256x12288_d1 = _
  rw [show W4 m ρ c (Proc.devRef .tc main_v6) = inputLayer bcast_S_S256x2048 (m ((c : Thread nD τ).loc main_arg0)) from (W4_main_v6 m ρ c).trans (W1_main_v6 m ρ c),
    W4_main_v7, W4_main_v8, W4_main_v9]
  rfl

/-- THE VALUE RUN: the program runs to the end with its result at the network's spikes of the launch contents of its
    arguments, and the arguments as launched. -/
theorem run_value : θ_run defs (onTc (τ := τ) (main (F := Ideal))) ⟨m, fun _ => 0, ρ⟩ (fun r => ∀ c : Dev nD,
      r.2.mem ((c.tc : Thread nD τ).loc main_v10) = network (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (result m ρ c),
     (h c _ (mem_uc main_arg0 (by decide))).trans (W5_arg m ρ c main_arg0 (by decide)),
     (h c _ (mem_uc main_arg1 (by decide))).trans (W5_arg m ρ c main_arg1 (by decide)),
     (h c _ (mem_uc main_arg2 (by decide))).trans (W5_arg m ρ c main_arg2 (by decide)),
     (h c _ (mem_uc main_arg3 (by decide))).trans (W5_arg m ρ c main_arg3 (by decide)),
     (h c _ (mem_uc main_arg4 (by decide))).trans (W5_arg m ρ c main_arg4 (by decide)),
     (h c _ (mem_uc main_arg5 (by decide))).trans (W5_arg m ρ c main_arg5 (by decide)),
     (h c _ (mem_uc main_arg6 (by decide))).trans (W5_arg m ρ c main_arg6 (by decide))⟩) (run_all m ρ)

end Cert.KernelIdeal.Lif

end
-- ==== Proof.Reference.lean ====
/-
  The reference program's result, on the extended reals: it transposes each weight matrix, multiplies the spikes by it,
  scales, subtracts the threshold, compares and converts, and joins the four groups' spikes.  Each of the three products
  is a layer of the network (the whole-array form of a layer), and the input group's term is the input layer's as
  written; so the reference ends at the network's spikes of its arguments.
-/
import proofs.«105442_j1176821039344_1_alg».proof.Proof.Gen.ReferenceIdeal.Read
import proofs.«105442_j1176821039344_1_alg».proof.Proof.Spikes

set_option maxRecDepth 16384

noncomputable section

namespace Cert.ReferenceIdeal.Lif

open Cert.ReferenceIdeal Cert.ReferenceIdeal.Gen Cert.ReferenceIdeal.Read Cert.Spikes
open Idealize.ShloMosaic Idealize.ShloMosaic.TcCoe Idealize.SL.Sem

/-- The hidden group 1's term is a layer. -/
theorem layer1_eq (s : FVec Ideal S256x2048 .f32) (w : FVec Ideal S4096x2048 .f32) :
    layer s w = uitofp (F := Ideal) .f32 (cmpf .oge (subf (mulf
        (broadcastInDim S256x4096 ![] bcast_S_S256x4096 (constant (F := Ideal) S_ .f32 0x3D4CCCCD#32))
        (Host.dotGeneral (F := Ideal) dot_S256x2048_S2048x4096_S256x4096_1_0_0_1_n_n none s (transpose S2048x4096 [1, 0] w transposes_S4096x2048_S2048x4096_1_0)))
        (broadcastInDim S256x4096 ![] bcast_S_S256x4096 (constant (F := Ideal) S_ .f32 0x3CA3D70A#32)))
        (broadcastInDim S256x4096 ![] bcast_S_S256x4096 (constant (F := Ideal) S_ .f32 0x00000000#32))) :=
  (host_layer dot_S256x2048_S2048x4096_S256x4096_1_0_0_1_n_n rfl rfl rfl rfl lhs_main_v1_0 rhs_main_v1_1 transposes_S4096x2048_S2048x4096_1_0 bcast_S_S256x4096 s w).symm

/-- The hidden group 2's term is a layer. -/
theorem layer2_eq (s : FVec Ideal S256x4096 .f32) (w : FVec Ideal S4096x4096 .f32) :
    layer s w = uitofp (F := Ideal) .f32 (cmpf .oge (subf (mulf
        (broadcastInDim S256x4096 ![] bcast_S_S256x4096 (constant (F := Ideal) S_ .f32 0x3D4CCCCD#32))
        (Host.dotGeneral (F := Ideal) dot_S256x4096_S4096x4096_S256x4096_1_0_0_1_n_n none s (transpose S4096x4096 [1, 0] w transposes_S4096x4096_S4096x4096_1_0)))
        (broadcastInDim S256x4096 ![] bcast_S_S256x4096 (constant (F := Ideal) S_ .f32 0x3CA3D70A#32)))
        (broadcastInDim S256x4096 ![] bcast_S_S256x4096 (constant (F := Ideal) S_ .f32 0x00000000#32))) :=
  (host_layer dot_S256x4096_S4096x4096_S256x4096_1_0_0_1_n_n rfl rfl rfl rfl lhs_main_v3_0 rhs_main_v3_1 transposes_S4096x4096_S4096x4096_1_0 bcast_S_S256x4096 s w).symm

/-- The output group's term is a layer. -/
theorem layer3_eq (s : FVec Ideal S256x4096 .f32) (w : FVec Ideal S2048x4096 .f32) :
    layer s w = uitofp (F := Ideal) .f32 (cmpf .oge (subf (mulf
        (broadcastInDim S256x2048 ![] bcast_S_S256x2048 (constant (F := Ideal) S_ .f32 0x3D4CCCCD#32))
        (Host.dotGeneral (F := Ideal) dot_S256x4096_S4096x2048_S256x2048_1_0_0_1_n_n none s (transpose S4096x2048 [1, 0] w transposes_S2048x4096_S4096x2048_1_0)))
        (broadcastInDim S256x2048 ![] bcast_S_S256x2048 (constant (F := Ideal) S_ .f32 0x3CA3D70A#32)))
        (broadcastInDim S256x2048 ![] bcast_S_S256x2048 (constant (F := Ideal) S_ .f32 0x00000000#32))) :=
  (host_layer dot_S256x4096_S4096x2048_S256x2048_1_0_0_1_n_n rfl rfl rfl rfl lhs_main_v5_0 rhs_main_v5_1 transposes_S2048x4096_S4096x2048_1_0 bcast_S_S256x2048 s w).symm

/-- THE VALUE RUN of the reference: it ends with its result at the network's spikes of its arguments' launch contents,
    and the arguments as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34) = network (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (by
      unfold network
      rw [layer1_eq, layer2_eq, layer3_eq]
      rfl), (h c).2⟩) (Cert.ReferenceIdeal.Value.run (F := Ideal) m ρ)

end Cert.ReferenceIdeal.Lif

end
-- ==== Proof.lean ====
/-
  A step of a four-group spiking network from a fresh state: the input group fires on its own inputs, and each of the
  three later groups fires on the previous step's spikes weighted by its matrix; the result is the four groups' spikes
  side by side.  The kernel program computes the three weighted groups in three pipelined regions, each tiling its
  neurons by 512; the reference computes each with one whole matrix product.  On the extended reals both end at the same
  array (`Cert.Spikes.network` of the arguments): a tile's matrix product is the same sum, neuron by neuron, as the whole
  product's, the scale factor commutes with it, and the two ways of turning the comparison's bit into a float agree.
  The frames: each program runs to the end and leaves its arguments as launched — the kernel program (at either float
  instance) by the run of its five stretches, the reference by its run of host operations.  No rewrite was applied in
  idealizing the kernel, so there is nothing to preserve.
-/
import proofs.«105442_j1176821039344_1_alg».proof.Defs
import proofs.«105442_j1176821039344_1_alg».proof.Proof.Kernel.Run
import proofs.«105442_j1176821039344_1_alg».proof.Proof.KernelIdeal.Value
import proofs.«105442_j1176821039344_1_alg».proof.Proof.Reference
import proofs.«105442_j1176821039344_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Lif.frame m ρ
theorem frame_ki : Cert.frame_KernelIdeal := fun m ρ _ => Cert.KernelIdeal.Lif.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the network's spikes of those arguments. -/
theorem algebraic : Cert.algebraic_KernelIdeal_ReferenceIdeal := by
  intro m ρ m' ρ' _ hagree
  refine ⟨fun c => Cert.Spikes.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Lif.run_value m ρ, ?_⟩
  refine (θ_run Cert.ReferenceIdeal.defs _ _).mono (fun _ h c => ⟨(h c).1.trans ?_, (h c).2⟩) (Cert.ReferenceIdeal.Lif.run_value m' ρ')
  rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
